-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x64x64x64 : Shape := ⟨5, ![4, 16, 64, 64, 64]⟩
abbrev S_ : Shape := ⟨0, ![]⟩

class Facts : Prop where
  bcast_S_S4x16x64x64x64 : S_.BroadcastsInDim S4x16x64x64x64 (![] : Fin 0 → Fin S4x16x64x64x64.rank)
  reducesTo_S4x16x64x64x64_S_d0_1_2_3_4 : S4x16x64x64x64.ReducesTo [0, 1, 2, 3, 4] S_
  h_S_ : 0 < S_.numel

variable [Facts]

def fn {F : FTy → Type} [FloatOps F] (main_arg0 : FVec F S4x16x64x64x64 .f32) : IVec S_ 1 :=
  let main_v0 : FVec F S4x16x64x64x64 .f32 := Host.absf main_arg0
  let main_cst : FVec F S_ .f32 := constant S_ .f32 0x7F800000#32
  let main_v1 : FVec F S4x16x64x64x64 .f32 := broadcastInDim S4x16x64x64x64 ![] bcast_S_S4x16x64x64x64 main_cst
  let main_v2 : IVec S4x16x64x64x64 1 := cmpf .olt main_v0 main_v1
  let main_c : IVec S_ 1 := constantI S_ 1 1#1
  let main_v3 : IVec S_ 1 := (fun x v => Host.reduce IntOp.andi x v reducesTo_S4x16x64x64x64_S_d0_1_2_3_4 h_S_) main_v2 main_c
  main_v3
-- ==== Kernel.lean ====
abbrev S4x16x64x64x64 : Shape := ⟨5, ![4, 16, 64, 64, 64]⟩
abbrev S4x80x64x64x64 : Shape := ⟨5, ![4, 80, 64, 64, 64]⟩
abbrev S1x1x64x64x64 : Shape := ⟨5, ![1, 1, 64, 64, 64]⟩
abbrev S1x5x64x64x64 : Shape := ⟨5, ![1, 5, 64, 64, 64]⟩
abbrev S1x1x1x64x64 : Shape := ⟨5, ![1, 1, 1, 64, 64]⟩
abbrev S1x1x65x64x64 : Shape := ⟨5, ![1, 1, 65, 64, 64]⟩
abbrev S1x1x64x1x64 : Shape := ⟨5, ![1, 1, 64, 1, 64]⟩
abbrev S1x1x64x65x64 : Shape := ⟨5, ![1, 1, 64, 65, 64]⟩
abbrev S1x1x64x64x1 : Shape := ⟨5, ![1, 1, 64, 64, 1]⟩
abbrev S1x1x64x64x65 : Shape := ⟨5, ![1, 1, 64, 64, 65]⟩

abbrev nBuf : Space → Nat
  | .hbm => 2
  | .vmem => 4
  | .smem => 0
  | _ => 0

abbrev bufTy : (tb : Table) → Fin (tcTables nBuf tb) → BufTy
  | .hbm, ⟨0, _⟩ => ⟨S4x16x64x64x64, .f32⟩
  | .hbm, ⟨1, _⟩ => ⟨S4x80x64x64x64, .f32⟩
  | .local _ .vmem, ⟨0, _⟩ => ⟨S1x1x64x64x64, .f32⟩
  | .local _ .vmem, ⟨1, _⟩ => ⟨S1x1x64x64x64, .f32⟩
  | .local _ .vmem, ⟨2, _⟩ => ⟨S1x5x64x64x64, .f32⟩
  | .local _ .vmem, ⟨3, _⟩ => ⟨S1x5x64x64x64, .f32⟩
  | _, _ => ⟨S4x16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x64x64x64_S1x1x64x64x64_0_0_0_0_0 : ∀ a, (![0, 0, 0, 0, 0] : Fin 5 → Nat) a + S1x1x64x64x64.size a ≤ S1x1x64x64x64.size a
  h_S1x1x64x64x64 : 0 < S1x1x64x64x64.numel
  inb_S1x5x64x64x64_S1x1x64x64x64_0_0_0_0_0 : ∀ a, (![0, 0, 0, 0, 0] : Fin 5 → Nat) a + S1x1x64x64x64.size a ≤ S1x5x64x64x64.size a
  concatenates_S1x1x64x64x64_S1x1x1x64x64_S1x1x65x64x64_d2 : Shape.Concatenates [S1x1x64x64x64, S1x1x1x64x64] S1x1x65x64x64 2
  slices_S1x1x65x64x64_o0_0_1_0_0_S1x1x64x64x64 : S1x1x65x64x64.Slices ![0, 0, 1, 0, 0] S1x1x64x64x64
  concatenates_S1x1x1x64x64_S1x1x64x64x64_S1x1x65x64x64_d2 : Shape.Concatenates [S1x1x1x64x64, S1x1x64x64x64] S1x1x65x64x64 2
  slices_S1x1x65x64x64_o0_0_0_0_0_S1x1x64x64x64 : S1x1x65x64x64.Slices ![0, 0, 0, 0, 0] S1x1x64x64x64
  inb_S1x5x64x64x64_S1x1x64x64x64_0_2_0_0_0 : ∀ a, (![0, 2, 0, 0, 0] : Fin 5 → Nat) a + S1x1x64x64x64.size a ≤ S1x5x64x64x64.size a
  concatenates_S1x1x64x64x64_S1x1x64x1x64_S1x1x64x65x64_d3 : Shape.Concatenates [S1x1x64x64x64, S1x1x64x1x64] S1x1x64x65x64 3
  slices_S1x1x64x65x64_o0_0_0_1_0_S1x1x64x64x64 : S1x1x64x65x64.Slices ![0, 0, 0, 1, 0] S1x1x64x64x64
  concatenates_S1x1x64x1x64_S1x1x64x64x64_S1x1x64x65x64_d3 : Shape.Concatenates [S1x1x64x1x64, S1x1x64x64x64] S1x1x64x65x64 3
  slices_S1x1x64x65x64_o0_0_0_0_0_S1x1x64x64x64 : S1x1x64x65x64.Slices ![0, 0, 0, 0, 0] S1x1x64x64x64
  inb_S1x5x64x64x64_S1x1x64x64x64_0_3_0_0_0 : ∀ a, (![0, 3, 0, 0, 0] : Fin 5 → Nat) a + S1x1x64x64x64.size a ≤ S1x5x64x64x64.size a
  concatenates_S1x1x64x64x64_S1x1x64x64x1_S1x1x64x64x65_d4 : Shape.Concatenates [S1x1x64x64x64, S1x1x64x64x1] S1x1x64x64x65 4
  slices_S1x1x64x64x65_o0_0_0_0_1_S1x1x64x64x64 : S1x1x64x64x65.Slices ![0, 0, 0, 0, 1] S1x1x64x64x64
  concatenates_S1x1x64x64x1_S1x1x64x64x64_S1x1x64x64x65_d4 : Shape.Concatenates [S1x1x64x64x1, S1x1x64x64x64] S1x1x64x64x65 4
  slices_S1x1x64x64x65_o0_0_0_0_0_S1x1x64x64x64 : S1x1x64x64x65.Slices ![0, 0, 0, 0, 0] S1x1x64x64x64
  inb_S1x5x64x64x64_S1x1x64x64x64_0_4_0_0_0 : ∀ a, (![0, 4, 0, 0, 0] : Fin 5 → Nat) a + S1x1x64x64x64.size a ≤ S1x5x64x64x64.size a
  inb_S1x5x64x64x64_S1x1x64x64x64_0_1_0_0_0 : ∀ a, (![0, 1, 0, 0, 0] : Fin 5 → Nat) a + S1x1x64x64x64.size a ≤ S1x5x64x64x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x64x64.size a ≤ S4x16x64x64x64.size a
  hwx0_0 : ∀ i : grid0.Coords, EltTy.bits .f32 = 32 ∨ (Rect.block (s := S4x16x64x64x64) S1x1x64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x64x64x64.size a ≤ S4x80x64x64x64.size a
  hwx0_1 : ∀ i : grid0.Coords, EltTy.bits .f32 = 32 ∨ (Rect.block (s := S4x80x64x64x64) S1x5x64x64x64.size (cc0_transform_1 i) (hinb0_1 i)).WholeWords (EltTy.packing .f32)

variable [Facts₀]

abbrev win0_0 : Pipeline.Window sig grid0 :=
  Pipeline.Window.ofSpec (Memref.whole main_arg0) S1x1x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x5x64x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x16x64x64x64 : Shape := ⟨5, ![4, 16, 64, 64, 64]⟩
abbrev S_ : Shape := ⟨0, ![]⟩
abbrev S4x16x65x64x64 : Shape := ⟨5, ![4, 16, 65, 64, 64]⟩
abbrev S4x16x64x65x64 : Shape := ⟨5, ![4, 16, 64, 65, 64]⟩
abbrev S4x16x64x64x65 : Shape := ⟨5, ![4, 16, 64, 64, 65]⟩
abbrev S4x16x1x64x64x64 : Shape := ⟨6, ![4, 16, 1, 64, 64, 64]⟩
abbrev S4x16x5x64x64x64 : Shape := ⟨6, ![4, 16, 5, 64, 64, 64]⟩
abbrev S4x80x64x64x64 : Shape := ⟨5, ![4, 80, 64, 64, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x16x64x64x64, .f32⟩
  | .hbm, ⟨1, _⟩ => ⟨S_, .i32⟩
  | .hbm, ⟨2, _⟩ => ⟨S_, .f32⟩
  | .hbm, ⟨3, _⟩ => ⟨S4x16x65x64x64, .f32⟩
  | .hbm, ⟨4, _⟩ => ⟨S4x16x64x64x64, .f32⟩
  | .hbm, ⟨5, _⟩ => ⟨S_, .i32⟩
  | .hbm, ⟨6, _⟩ => ⟨S_, .f32⟩
  | .hbm, ⟨7, _⟩ => ⟨S4x16x65x64x64, .f32⟩
  | .hbm, ⟨8, _⟩ => ⟨S4x16x64x64x64, .f32⟩
  | .hbm, ⟨9, _⟩ => ⟨S_, .i32⟩
  | .hbm, ⟨10, _⟩ => ⟨S_, .f32⟩
  | .hbm, ⟨11, _⟩ => ⟨S4x16x64x65x64, .f32⟩
  | .hbm, ⟨12, _⟩ => ⟨S4x16x64x64x64, .f32⟩
  | .hbm, ⟨13, _⟩ => ⟨S_, .i32⟩
  | .hbm, ⟨14, _⟩ => ⟨S_, .f32⟩
  | .hbm, ⟨15, _⟩ => ⟨S4x16x64x65x64, .f32⟩
  | .hbm, ⟨16, _⟩ => ⟨S4x16x64x64x64, .f32⟩
  | .hbm, ⟨17, _⟩ => ⟨S_, .i32⟩
  | .hbm, ⟨18, _⟩ => ⟨S_, .f32⟩
  | .hbm, ⟨19, _⟩ => ⟨S4x16x64x64x65, .f32⟩
  | .hbm, ⟨20, _⟩ => ⟨S4x16x64x64x64, .f32⟩
  | .hbm, ⟨21, _⟩ => ⟨S_, .i32⟩
  | .hbm, ⟨22, _⟩ => ⟨S_, .f32⟩
  | .hbm, ⟨23, _⟩ => ⟨S4x16x64x64x65, .f32⟩
  | .hbm, ⟨24, _⟩ => ⟨S4x16x64x64x64, .f32⟩
  | .hbm, ⟨25, _⟩ => ⟨S4x16x64x64x64, .f32⟩
  | .hbm, ⟨26, _⟩ => ⟨S4x16x64x64x64, .f32⟩
  | .hbm, ⟨27, _⟩ => ⟨S4x16x64x64x64, .f32⟩
  | .hbm, ⟨28, _⟩ => ⟨S4x16x64x64x64, .f32⟩
  | .hbm, ⟨29, _⟩ => ⟨S4x16x64x64x64, .f32⟩
  | .hbm, ⟨30, _⟩ => ⟨S4x16x64x64x64, .f32⟩
  | .hbm, ⟨31, _⟩ => ⟨S4x16x64x64x64, .f32⟩
  | .hbm, ⟨32, _⟩ => ⟨S4x16x64x64x64, .f32⟩
  | .hbm, ⟨33, _⟩ => ⟨S4x16x1x64x64x64, .f32⟩
  | .hbm, ⟨34, _⟩ => ⟨S4x16x1x64x64x64, .f32⟩
  | .hbm, ⟨35, _⟩ => ⟨S4x16x1x64x64x64, .f32⟩
  | .hbm, ⟨36, _⟩ => ⟨S4x16x1x64x64x64, .f32⟩
  | .hbm, ⟨37, _⟩ => ⟨S4x16x1x64x64x64, .f32⟩
  | .hbm, ⟨38, _⟩ => ⟨S4x16x5x64x64x64, .f32⟩
  | .hbm, ⟨39, _⟩ => ⟨S4x80x64x64x64, .f32⟩
  | _, _ => ⟨S4x16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call1_v0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call2_v0 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_call3_v0 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_call4_v0 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_call5_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  pads_S4x16x64x64x64_S4x16x65x64x64_000_000_010_000_000 : S4x16x64x64x64.Pads (![0, 0, 0, 0, 0] : Fin 5 → Nat) ![0, 0, 1, 0, 0] ![0, 0, 0, 0, 0] S4x16x65x64x64
  h_S_ : 0 < S_.numel
  slices_S4x16x65x64x64_S4x16x64x64x64_0_0_1_0_0 : S4x16x65x64x64.Slices ![0, 0, 1, 0, 0] S4x16x64x64x64
  pads_S4x16x64x64x64_S4x16x65x64x64_000_000_100_000_000 : S4x16x64x64x64.Pads (![0, 0, 1, 0, 0] : Fin 5 → Nat) ![0, 0, 0, 0, 0] ![0, 0, 0, 0, 0] S4x16x65x64x64
  slices_S4x16x65x64x64_S4x16x64x64x64_0_0_0_0_0 : S4x16x65x64x64.Slices ![0, 0, 0, 0, 0] S4x16x64x64x64
  pads_S4x16x64x64x64_S4x16x64x65x64_000_000_000_010_000 : S4x16x64x64x64.Pads (![0, 0, 0, 0, 0] : Fin 5 → Nat) ![0, 0, 0, 1, 0] ![0, 0, 0, 0, 0] S4x16x64x65x64
  slices_S4x16x64x65x64_S4x16x64x64x64_0_0_0_1_0 : S4x16x64x65x64.Slices ![0, 0, 0, 1, 0] S4x16x64x64x64
  pads_S4x16x64x64x64_S4x16x64x65x64_000_000_000_100_000 : S4x16x64x64x64.Pads (![0, 0, 0, 1, 0] : Fin 5 → Nat) ![0, 0, 0, 0, 0] ![0, 0, 0, 0, 0] S4x16x64x65x64
  slices_S4x16x64x65x64_S4x16x64x64x64_0_0_0_0_0 : S4x16x64x65x64.Slices ![0, 0, 0, 0, 0] S4x16x64x64x64
  pads_S4x16x64x64x64_S4x16x64x64x65_000_000_000_000_010 : S4x16x64x64x64.Pads (![0, 0, 0, 0, 0] : Fin 5 → Nat) ![0, 0, 0, 0, 1] ![0, 0, 0, 0, 0] S4x16x64x64x65
  slices_S4x16x64x64x65_S4x16x64x64x64_0_0_0_0_1 : S4x16x64x64x65.Slices ![0, 0, 0, 0, 1] S4x16x64x64x64
  pads_S4x16x64x64x64_S4x16x64x64x65_000_000_000_000_100 : S4x16x64x64x64.Pads (![0, 0, 0, 0, 1] : Fin 5 → Nat) ![0, 0, 0, 0, 0] ![0, 0, 0, 0, 0] S4x16x64x64x65
  slices_S4x16x64x64x65_S4x16x64x64x64_0_0_0_0_0 : S4x16x64x64x65.Slices ![0, 0, 0, 0, 0] S4x16x64x64x64
  bcast_S4x16x64x64x64_S4x16x1x64x64x64_0_1_3_4_5 : S4x16x64x64x64.BroadcastsInDim S4x16x1x64x64x64 (![0, 1, 3, 4, 5] : Fin 5 → Fin S4x16x1x64x64x64.rank)
  concatenates_S4x16x1x64x64x64_S4x16x1x64x64x64_S4x16x1x64x64x64_S4x16x1x64x64x64_S4x16x1x64x64x64_S4x16x5x64x64x64_d2 : Shape.Concatenates [S4x16x1x64x64x64, S4x16x1x64x64x64, S4x16x1x64x64x64, S4x16x1x64x64x64, S4x16x1x64x64x64] S4x16x5x64x64x64 2
  shapeCasts_S4x16x5x64x64x64_S4x80x64x64x64 : S4x16x5x64x64x64.ShapeCasts S4x80x64x64x64

variable [Facts₀]

class Facts : Prop extends Facts₀ where

variable [Facts]
-- ==== Proof.Stencil.lean ====
/-
  The stencil, stated once, index by index.

  An array `x` of shape [A, B, 64, 64, 64] has six zero-padded neighbours at each position (d, h, w) of a slab (a, b):
  the next and the previous entry along each of the three spatial axes, where "next" past the last entry and
  "previous" before the first one read the padding value `z`.  From them five values are formed per position:

    group 0   the entry itself,
    group 1   the sum of the six neighbours, added in the order  next/prev along depth, next/prev along height,
              next/prev along width  (left to right),
    group 2   next − previous along depth,
    group 3   next − previous along height,
    group 4   next − previous along width.

  `interleaved z x` is the result array of shape [4, 80, 64, 64, 64] of an argument of shape [4, 16, 64, 64, 64]: channel
  `q` of the result is group `q % 5` of input channel `q / 5`.  Everything is stated for any float instance: the two
  programs perform the same additions and subtractions in the same order, so no law of arithmetic is used.
-/
import Idealize.ShloMosaic.PureOps.Ideal
import Idealize.ShloMosaic.Lib.ValueIdx

noncomputable section

namespace Cert.Stencil

open Idealize.ShloMosaic Idealize.ShloMosaic.ValueIdx

variable {F : FTy → Type} [FloatOps F]

/-- A stack of `A × B` slabs of 64 × 64 × 64 entries. -/
abbrev Slabs (A B : Nat) : Shape := ⟨5, ![A, B, 64, 64, 64]⟩

variable {A B : Nat}

/-- The entry one step further along the depth axis, or the padding value past the end. -/
def nextD (z : F .f32) (x : (Slabs A B).Idx → F .f32) (a : Fin A) (b : Fin B) (d h w : Fin 64) : F .f32 :=
  if hd : d.val + 1 < 64 then x (ix5 a b ⟨d.val + 1, hd⟩ h w) else z

/-- The entry one step back along the depth axis, or the padding value before the start. -/
def prevD (z : F .f32) (x : (Slabs A B).Idx → F .f32) (a : Fin A) (b : Fin B) (d h w : Fin 64) : F .f32 :=
  if hd : 1 ≤ d.val then x (ix5 a b ⟨d.val - 1, by have := d.isLt; omega⟩ h w) else z

/-- The entry one step further along the height axis, or the padding value past the end. -/
def nextH (z : F .f32) (x : (Slabs A B).Idx → F .f32) (a : Fin A) (b : Fin B) (d h w : Fin 64) : F .f32 :=
  if hh : h.val + 1 < 64 then x (ix5 a b d ⟨h.val + 1, hh⟩ w) else z

/-- The entry one step back along the height axis, or the padding value before the start. -/
def prevH (z : F .f32) (x : (Slabs A B).Idx → F .f32) (a : Fin A) (b : Fin B) (d h w : Fin 64) : F .f32 :=
  if hh : 1 ≤ h.val then x (ix5 a b d ⟨h.val - 1, by have := h.isLt; omega⟩ w) else z

/-- The entry one step further along the width axis, or the padding value past the end. -/
def nextW (z : F .f32) (x : (Slabs A B).Idx → F .f32) (a : Fin A) (b : Fin B) (d h w : Fin 64) : F .f32 :=
  if hw : w.val + 1 < 64 then x (ix5 a b d h ⟨w.val + 1, hw⟩) else z

/-- The entry one step back along the width axis, or the padding value before the start. -/
def prevW (z : F .f32) (x : (Slabs A B).Idx → F .f32) (a : Fin A) (b : Fin B) (d h w : Fin 64) : F .f32 :=
  if hw : 1 ≤ w.val then x (ix5 a b d h ⟨w.val - 1, by have := w.isLt; omega⟩) else z

/-- The six neighbours added left to right: depth, height, width; next before previous. -/
def neighbourSum (z : F .f32) (x : (Slabs A B).Idx → F .f32) (a : Fin A) (b : Fin B) (d h w : Fin 64) : F .f32 :=
  FloatOps.addf (FloatOps.addf (FloatOps.addf (FloatOps.addf (FloatOps.addf (nextD z x a b d h w) (prevD z x a b d h w))
    (nextH z x a b d h w)) (prevH z x a b d h w)) (nextW z x a b d h w)) (prevW z x a b d h w)

/-- Group `g` of slab `(a, b)` at position `(d, h, w)`. -/
def group (z : F .f32) (x : (Slabs A B).Idx → F .f32) (a : Fin A) (b : Fin B) (g : Fin 5) (d h w : Fin 64) : F .f32 :=
  match g with
  | ⟨0, _⟩ => x (ix5 a b d h w)
  | ⟨1, _⟩ => neighbourSum z x a b d h w
  | ⟨2, _⟩ => FloatOps.subf (nextD z x a b d h w) (prevD z x a b d h w)
  | ⟨3, _⟩ => FloatOps.subf (nextH z x a b d h w) (prevH z x a b d h w)
  | ⟨4, _⟩ => FloatOps.subf (nextW z x a b d h w) (prevW z x a b d h w)

/-- The neighbours of a slab cut out of a larger stack are the stack's neighbours within that slab: a shift never
    leaves its slab. -/
theorem group_of_slab (z : F .f32) (X : (Slabs A B).Idx → F .f32) (x0 : (Slabs 1 1).Idx → F .f32) (a : Fin A) (b : Fin B)
    (hx : ∀ (d h w : Fin 64), x0 (ix5 0 0 d h w) = X (ix5 a b d h w)) (g : Fin 5) (d h w : Fin 64) :
    group z x0 0 0 g d h w = group z X a b g d h w := by
  have eND : nextD z x0 0 0 d h w = nextD z X a b d h w := by
    unfold nextD; split
    · exact hx _ _ _
    · rfl
  have ePD : prevD z x0 0 0 d h w = prevD z X a b d h w := by
    unfold prevD; split
    · exact hx _ _ _
    · rfl
  have eNH : nextH z x0 0 0 d h w = nextH z X a b d h w := by
    unfold nextH; split
    · exact hx _ _ _
    · rfl
  have ePH : prevH z x0 0 0 d h w = prevH z X a b d h w := by
    unfold prevH; split
    · exact hx _ _ _
    · rfl
  have eNW : nextW z x0 0 0 d h w = nextW z X a b d h w := by
    unfold nextW; split
    · exact hx _ _ _
    · rfl
  have ePW : prevW z x0 0 0 d h w = prevW z X a b d h w := by
    unfold prevW; split
    · exact hx _ _ _
    · rfl
  match g with
  | ⟨0, _⟩ => exact hx d h w
  | ⟨1, _⟩ => show neighbourSum z x0 0 0 d h w = neighbourSum z X a b d h w
              unfold neighbourSum; rw [eND, ePD, eNH, ePH, eNW, ePW]
  | ⟨2, _⟩ => show FloatOps.subf _ _ = FloatOps.subf _ _; rw [eND, ePD]
  | ⟨3, _⟩ => show FloatOps.subf _ _ = FloatOps.subf _ _; rw [eNH, ePH]
  | ⟨4, _⟩ => show FloatOps.subf _ _ = FloatOps.subf _ _; rw [eNW, ePW]

/-- The result array: channel `q` is group `q % 5` of input channel `q / 5`. -/
def interleaved (z : F .f32) (x : (Slabs 4 16).Idx → F .f32) : (⟨5, ![4, 80, 64, 64, 64]⟩ : Shape).Idx → F .f32 := fun j =>
  group z x ⟨(j 0).val, (j 0).isLt⟩
    ⟨(j 1).val / 5, by have h : (j 1).val < 80 := (j 1).isLt; omega⟩
    ⟨(j 1).val % 5, Nat.mod_lt _ (by decide)⟩
    ⟨(j 2).val, (j 2).isLt⟩ ⟨(j 3).val, (j 3).isLt⟩ ⟨(j 4).val, (j 4).isLt⟩

/-- The result array at channel `5c + g`. -/
theorem interleaved_at (z : F .f32) (x : (Slabs 4 16).Idx → F .f32) (a : Fin 4) (c : Fin 16) (g : Fin 5) (d h w : Fin 64)
    (q : Fin 80) (hq : q.val = 5 * c.val + g.val) :
    interleaved z x (ix5 a q d h w) = group z x a c g d h w := by
  have hg : g.val < 5 := g.isLt
  have e1 : ∀ hh, (⟨q.val / 5, hh⟩ : Fin 16) = c := fun _ => Fin.ext (by show q.val / 5 = c.val; omega)
  have e2 : ∀ hh, (⟨q.val % 5, hh⟩ : Fin 5) = g := fun _ => Fin.ext (by show q.val % 5 = g.val; omega)
  show group z x ⟨a.val, _⟩ ⟨q.val / 5, _⟩ ⟨q.val % 5, _⟩ ⟨d.val, _⟩ ⟨h.val, _⟩ ⟨w.val, _⟩ = _
  rw [e1, e2]

end Cert.Stencil

end
-- ==== Proof.KernelTaps.lean ====
/-
  The kernel's spelling of a zero-padded shift, read at an index.

  Inside the kernel a slab [1, 1, 64, 64, 64] is joined with one layer of the padding value along a spatial axis — after
  the slab for "next", before it for "previous" — and 64 layers are cut out of the 65: from layer 1 on for "next",
  from layer 0 on for "previous".  At position (d, h, w) the cut reads layer d + 1 (resp. d) of the joined value, which
  is the slab's entry one step further (resp. back) when that layer belongs to the slab and the padding value when it
  is the added layer.  One lemma per axis and direction.
-/
import proofs.«176575_j17162689314953_1_alg».proof.Proof.Stencil
import Idealize.ShloMosaic.Lib.Pipeline.Value

noncomputable section

namespace Cert.Stencil

open Idealize.ShloMosaic Idealize.ShloMosaic.ValueIdx

variable {F : FTy → Type} [FloatOps F]

/-- One slab. -/
abbrev Slab : Shape := ⟨5, ![1, 1, 64, 64, 64]⟩
abbrev LayerD : Shape := ⟨5, ![1, 1, 1, 64, 64]⟩
abbrev LayerH : Shape := ⟨5, ![1, 1, 64, 1, 64]⟩
abbrev LayerW : Shape := ⟨5, ![1, 1, 64, 64, 1]⟩
abbrev SlabD : Shape := ⟨5, ![1, 1, 65, 64, 64]⟩
abbrev SlabH : Shape := ⟨5, ![1, 1, 64, 65, 64]⟩
abbrev SlabW : Shape := ⟨5, ![1, 1, 64, 64, 65]⟩

variable (z : F .f32) (x : Slab.Idx → F .f32) (a b : Fin 1) (d h w : Fin 64)

/-- Depth, next: the slab then one layer of padding, cut from layer 1. -/
theorem cut_join_nextD (hc : Shape.Concatenates [Slab, LayerD] SlabD 2) (hs : SlabD.Slices ![0, 0, 1, 0, 0] Slab) :
    extractStridedSlice Slab ![0, 0, 1, 0, 0] (concatenate SlabD 2 [⟨Slab, x⟩, ⟨LayerD, broadcast LayerD z⟩] hc) hs (ix5 a b d h w)
      = nextD z x a b d h w := by
  have hd : d.val < 64 := d.isLt
  refine (extractStridedSlice_apply _ _ hs (ix5 a b d h w) (ix5 a b (⟨d.val + 1, by omega⟩ : Fin 65) h w) (fun e => ?_)).trans ?_
  · match e with
    | ⟨0, _⟩ => show a.val = 0 + a.val; omega
    | ⟨1, _⟩ => show b.val = 0 + b.val; omega
    | ⟨2, _⟩ => show d.val + 1 = 1 + d.val; omega
    | ⟨3, _⟩ => show h.val = 0 + h.val; omega
    | ⟨4, _⟩ => show w.val = 0 + w.val; omega
  · unfold nextD
    by_cases hd1 : d.val + 1 < 64
    · rw [dif_pos hd1]
      exact concatenate_pair_apply_left 2 x _ hc _ rfl (ix5 a b ⟨d.val + 1, hd1⟩ h w) (fun e => by
        match e with
        | ⟨0, _⟩ => rfl
        | ⟨1, _⟩ => rfl
        | ⟨2, _⟩ => rfl
        | ⟨3, _⟩ => rfl
        | ⟨4, _⟩ => rfl)
    · rw [dif_neg hd1]
      exact concatenate_pair_apply_right 2 x (broadcast LayerD z) hc _ rfl rfl (ix5 a b (0 : Fin 1) h w) (fun e he => by
        match e with
        | ⟨0, _⟩ => rfl
        | ⟨1, _⟩ => rfl
        | ⟨2, _⟩ => exact absurd rfl he
        | ⟨3, _⟩ => rfl
        | ⟨4, _⟩ => rfl) (by show 0 + 64 = d.val + 1; omega)

/-- Depth, previous: one layer of padding then the slab, cut from layer 0. -/
theorem cut_join_prevD (hc : Shape.Concatenates [LayerD, Slab] SlabD 2) (hs : SlabD.Slices ![0, 0, 0, 0, 0] Slab) :
    extractStridedSlice Slab ![0, 0, 0, 0, 0] (concatenate SlabD 2 [⟨LayerD, broadcast LayerD z⟩, ⟨Slab, x⟩] hc) hs (ix5 a b d h w)
      = prevD z x a b d h w := by
  have hd : d.val < 64 := d.isLt
  refine (extractStridedSlice_apply _ _ hs (ix5 a b d h w) (ix5 a b (⟨d.val, by omega⟩ : Fin 65) h w) (fun e => ?_)).trans ?_
  · match e with
    | ⟨0, _⟩ => show a.val = 0 + a.val; omega
    | ⟨1, _⟩ => show b.val = 0 + b.val; omega
    | ⟨2, _⟩ => show d.val = 0 + d.val; omega
    | ⟨3, _⟩ => show h.val = 0 + h.val; omega
    | ⟨4, _⟩ => show w.val = 0 + w.val; omega
  · unfold prevD
    by_cases hd1 : 1 ≤ d.val
    · rw [dif_pos hd1]
      exact concatenate_pair_apply_right 2 (broadcast LayerD z) x hc _ rfl rfl (ix5 a b ⟨d.val - 1, by omega⟩ h w) (fun e he => by
        match e with
        | ⟨0, _⟩ => rfl
        | ⟨1, _⟩ => rfl
        | ⟨2, _⟩ => exact absurd rfl he
        | ⟨3, _⟩ => rfl
        | ⟨4, _⟩ => rfl) (by show d.val - 1 + 1 = d.val; omega)
    · rw [dif_neg hd1]
      exact concatenate_pair_apply_left 2 (broadcast LayerD z) x hc _ rfl (ix5 a b (0 : Fin 1) h w) (fun e => by
        match e with
        | ⟨0, _⟩ => rfl
        | ⟨1, _⟩ => rfl
        | ⟨2, _⟩ => show 0 = d.val; omega
        | ⟨3, _⟩ => rfl
        | ⟨4, _⟩ => rfl)

/-- Height, next. -/
theorem cut_join_nextH (hc : Shape.Concatenates [Slab, LayerH] SlabH 3) (hs : SlabH.Slices ![0, 0, 0, 1, 0] Slab) :
    extractStridedSlice Slab ![0, 0, 0, 1, 0] (concatenate SlabH 3 [⟨Slab, x⟩, ⟨LayerH, broadcast LayerH z⟩] hc) hs (ix5 a b d h w)
      = nextH z x a b d h w := by
  have hh : h.val < 64 := h.isLt
  refine (extractStridedSlice_apply _ _ hs (ix5 a b d h w) (ix5 a b d (⟨h.val + 1, by omega⟩ : Fin 65) w) (fun e => ?_)).trans ?_
  · match e with
    | ⟨0, _⟩ => show a.val = 0 + a.val; omega
    | ⟨1, _⟩ => show b.val = 0 + b.val; omega
    | ⟨2, _⟩ => show d.val = 0 + d.val; omega
    | ⟨3, _⟩ => show h.val + 1 = 1 + h.val; omega
    | ⟨4, _⟩ => show w.val = 0 + w.val; omega
  · unfold nextH
    by_cases hh1 : h.val + 1 < 64
    · rw [dif_pos hh1]
      exact concatenate_pair_apply_left 3 x _ hc _ rfl (ix5 a b d ⟨h.val + 1, hh1⟩ w) (fun e => by
        match e with
        | ⟨0, _⟩ => rfl
        | ⟨1, _⟩ => rfl
        | ⟨2, _⟩ => rfl
        | ⟨3, _⟩ => rfl
        | ⟨4, _⟩ => rfl)
    · rw [dif_neg hh1]
      exact concatenate_pair_apply_right 3 x (broadcast LayerH z) hc _ rfl rfl (ix5 a b d (0 : Fin 1) w) (fun e he => by
        match e with
        | ⟨0, _⟩ => rfl
        | ⟨1, _⟩ => rfl
        | ⟨2, _⟩ => rfl
        | ⟨3, _⟩ => exact absurd rfl he
        | ⟨4, _⟩ => rfl) (by show 0 + 64 = h.val + 1; omega)

/-- Height, previous. -/
theorem cut_join_prevH (hc : Shape.Concatenates [LayerH, Slab] SlabH 3) (hs : SlabH.Slices ![0, 0, 0, 0, 0] Slab) :
    extractStridedSlice Slab ![0, 0, 0, 0, 0] (concatenate SlabH 3 [⟨LayerH, broadcast LayerH z⟩, ⟨Slab, x⟩] hc) hs (ix5 a b d h w)
      = prevH z x a b d h w := by
  have hh : h.val < 64 := h.isLt
  refine (extractStridedSlice_apply _ _ hs (ix5 a b d h w) (ix5 a b d (⟨h.val, by omega⟩ : Fin 65) w) (fun e => ?_)).trans ?_
  · match e with
    | ⟨0, _⟩ => show a.val = 0 + a.val; omega
    | ⟨1, _⟩ => show b.val = 0 + b.val; omega
    | ⟨2, _⟩ => show d.val = 0 + d.val; omega
    | ⟨3, _⟩ => show h.val = 0 + h.val; omega
    | ⟨4, _⟩ => show w.val = 0 + w.val; omega
  · unfold prevH
    by_cases hh1 : 1 ≤ h.val
    · rw [dif_pos hh1]
      exact concatenate_pair_apply_right 3 (broadcast LayerH z) x hc _ rfl rfl (ix5 a b d ⟨h.val - 1, by omega⟩ w) (fun e he => by
        match e with
        | ⟨0, _⟩ => rfl
        | ⟨1, _⟩ => rfl
        | ⟨2, _⟩ => rfl
        | ⟨3, _⟩ => exact absurd rfl he
        | ⟨4, _⟩ => rfl) (by show h.val - 1 + 1 = h.val; omega)
    · rw [dif_neg hh1]
      exact concatenate_pair_apply_left 3 (broadcast LayerH z) x hc _ rfl (ix5 a b d (0 : Fin 1) w) (fun e => by
        match e with
        | ⟨0, _⟩ => rfl
        | ⟨1, _⟩ => rfl
        | ⟨2, _⟩ => rfl
        | ⟨3, _⟩ => show 0 = h.val; omega
        | ⟨4, _⟩ => rfl)

/-- Width, next. -/
theorem cut_join_nextW (hc : Shape.Concatenates [Slab, LayerW] SlabW 4) (hs : SlabW.Slices ![0, 0, 0, 0, 1] Slab) :
    extractStridedSlice Slab ![0, 0, 0, 0, 1] (concatenate SlabW 4 [⟨Slab, x⟩, ⟨LayerW, broadcast LayerW z⟩] hc) hs (ix5 a b d h w)
      = nextW z x a b d h w := by
  have hw : w.val < 64 := w.isLt
  refine (extractStridedSlice_apply _ _ hs (ix5 a b d h w) (ix5 a b d h (⟨w.val + 1, by omega⟩ : Fin 65)) (fun e => ?_)).trans ?_
  · match e with
    | ⟨0, _⟩ => show a.val = 0 + a.val; omega
    | ⟨1, _⟩ => show b.val = 0 + b.val; omega
    | ⟨2, _⟩ => show d.val = 0 + d.val; omega
    | ⟨3, _⟩ => show h.val = 0 + h.val; omega
    | ⟨4, _⟩ => show w.val + 1 = 1 + w.val; omega
  · unfold nextW
    by_cases hw1 : w.val + 1 < 64
    · rw [dif_pos hw1]
      exact concatenate_pair_apply_left 4 x _ hc _ rfl (ix5 a b d h ⟨w.val + 1, hw1⟩) (fun e => by
        match e with
        | ⟨0, _⟩ => rfl
        | ⟨1, _⟩ => rfl
        | ⟨2, _⟩ => rfl
        | ⟨3, _⟩ => rfl
        | ⟨4, _⟩ => rfl)
    · rw [dif_neg hw1]
      exact concatenate_pair_apply_right 4 x (broadcast LayerW z) hc _ rfl rfl (ix5 a b d h (0 : Fin 1)) (fun e he => by
        match e with
        | ⟨0, _⟩ => rfl
        | ⟨1, _⟩ => rfl
        | ⟨2, _⟩ => rfl
        | ⟨3, _⟩ => rfl
        | ⟨4, _⟩ => exact absurd rfl he) (by show 0 + 64 = w.val + 1; omega)

/-- Width, previous. -/
theorem cut_join_prevW (hc : Shape.Concatenates [LayerW, Slab] SlabW 4) (hs : SlabW.Slices ![0, 0, 0, 0, 0] Slab) :
    extractStridedSlice Slab ![0, 0, 0, 0, 0] (concatenate SlabW 4 [⟨LayerW, broadcast LayerW z⟩, ⟨Slab, x⟩] hc) hs (ix5 a b d h w)
      = prevW z x a b d h w := by
  have hw : w.val < 64 := w.isLt
  refine (extractStridedSlice_apply _ _ hs (ix5 a b d h w) (ix5 a b d h (⟨w.val, by omega⟩ : Fin 65)) (fun e => ?_)).trans ?_
  · match e with
    | ⟨0, _⟩ => show a.val = 0 + a.val; omega
    | ⟨1, _⟩ => show b.val = 0 + b.val; omega
    | ⟨2, _⟩ => show d.val = 0 + d.val; omega
    | ⟨3, _⟩ => show h.val = 0 + h.val; omega
    | ⟨4, _⟩ => show w.val = 0 + w.val; omega
  · unfold prevW
    by_cases hw1 : 1 ≤ w.val
    · rw [dif_pos hw1]
      exact concatenate_pair_apply_right 4 (broadcast LayerW z) x hc _ rfl rfl (ix5 a b d h ⟨w.val - 1, by omega⟩) (fun e he => by
        match e with
        | ⟨0, _⟩ => rfl
        | ⟨1, _⟩ => rfl
        | ⟨2, _⟩ => rfl
        | ⟨3, _⟩ => rfl
        | ⟨4, _⟩ => exact absurd rfl he) (by show w.val - 1 + 1 = w.val; omega)
    · rw [dif_neg hw1]
      exact concatenate_pair_apply_left 4 (broadcast LayerW z) x hc _ rfl (ix5 a b d h (0 : Fin 1)) (fun e => by
        match e with
        | ⟨0, _⟩ => rfl
        | ⟨1, _⟩ => rfl
        | ⟨2, _⟩ => rfl
        | ⟨3, _⟩ => rfl
        | ⟨4, _⟩ => show 0 = w.val; omega)

end Cert.Stencil

end
-- ==== Proof.KernelSlab.lean ====
/-
  What the kernel body leaves in the output block of one grid point, as a function of the slab it loaded.

  The body stores five rectangles [1, 1, 64, 64, 64] into its [1, 5, 64, 64, 64] output buffer, one per channel of the
  block: the slab itself into channel 0, the sum of its six zero-padded neighbours into channel 1, and the three
  differences next − previous into channels 2, 3 and 4.  Each stored value is built from the six shifted copies of the
  slab, and each shifted copy is a join with one layer of zeros followed by a cut (read at an index in
  KernelTaps.lean).  So channel `g` of the block at (d, h, w) is `group g` of the slab at (d, h, w).
-/
import proofs.«176575_j17162689314953_1_alg».proof.Proof.KernelTaps
import proofs.«176575_j17162689314953_1_alg».proof.Proof.Gen.KernelIdeal.Frame
import Idealize.ShloMosaic.Lib.Pipeline.Value

noncomputable section

namespace Cert.KernelIdeal.Slab

open Cert.KernelIdeal Cert.KernelIdeal.Gen Cert.Stencil
open Idealize.ShloMosaic Idealize.ShloMosaic.ValueIdx Idealize.ShloMosaic.TcCoe

variable {F : FTy → Type} [FloatOps F]

/-- The padding value the body splats: the integer 0 converted to f32 on the scalar unit. -/
abbrev zpad : F .f32 := Scalar.sitofp (F := F) .f32 (0#32 : BitVec 32)

variable (x0 : Vec F S1x1x64x64x64 .f32) (d h w : Fin 64)

/-! ## The six shifted copies of the slab -/

theorem nextD_at : k0_pay4 x0 (ix5 0 0 d h w) = nextD zpad x0 0 0 d h w := by
  unfold k0_pay4; exact cut_join_nextD zpad x0 0 0 d h w _ _

theorem prevD_at : k0_pay5 x0 (ix5 0 0 d h w) = prevD zpad x0 0 0 d h w := by
  unfold k0_pay5; exact cut_join_prevD zpad x0 0 0 d h w _ _

theorem nextH_at : k0_pay7 x0 (ix5 0 0 d h w) = nextH zpad x0 0 0 d h w := by
  unfold k0_pay7; exact cut_join_nextH zpad x0 0 0 d h w _ _

theorem prevH_at : k0_pay8 x0 (ix5 0 0 d h w) = prevH zpad x0 0 0 d h w := by
  unfold k0_pay8; exact cut_join_prevH zpad x0 0 0 d h w _ _

theorem nextW_at : k0_pay11 x0 (ix5 0 0 d h w) = nextW zpad x0 0 0 d h w := by
  unfold k0_pay11; exact cut_join_nextW zpad x0 0 0 d h w _ _

theorem prevW_at : k0_pay1 x0 (0#32 : BitVec 32) (ix5 0 0 d h w) = prevW zpad x0 0 0 d h w := by
  unfold k0_pay1; exact cut_join_prevW zpad x0 0 0 d h w _ _

/-! ## The four computed channels -/

/-- Channel 1: the six neighbours, added in the body's order. -/
theorem sum_at : k0_pay3 x0 (k0_pay10 x0) (k0_pay11 x0) (0#32 : BitVec 32) (ix5 0 0 d h w) = neighbourSum zpad x0 0 0 d h w := by
  show FloatOps.addf (FloatOps.addf (FloatOps.addf (FloatOps.addf (FloatOps.addf (k0_pay4 x0 (ix5 0 0 d h w)) (k0_pay5 x0 (ix5 0 0 d h w)))
    (k0_pay7 x0 (ix5 0 0 d h w))) (k0_pay8 x0 (ix5 0 0 d h w))) (k0_pay11 x0 (ix5 0 0 d h w))) (k0_pay1 x0 (0#32 : BitVec 32) (ix5 0 0 d h w)) = _
  rw [nextD_at, prevD_at, nextH_at, prevH_at, nextW_at, prevW_at]
  rfl

/-- Channel 2: next − previous along depth. -/
theorem diffD_at : k0_pay6 x0 (ix5 0 0 d h w) = FloatOps.subf (nextD zpad x0 0 0 d h w) (prevD zpad x0 0 0 d h w) := by
  show FloatOps.subf (k0_pay4 x0 (ix5 0 0 d h w)) (k0_pay5 x0 (ix5 0 0 d h w)) = _
  rw [nextD_at, prevD_at]

/-- Channel 3: next − previous along height. -/
theorem diffH_at : k0_pay9 x0 (ix5 0 0 d h w) = FloatOps.subf (nextH zpad x0 0 0 d h w) (prevH zpad x0 0 0 d h w) := by
  show FloatOps.subf (k0_pay7 x0 (ix5 0 0 d h w)) (k0_pay8 x0 (ix5 0 0 d h w)) = _
  rw [nextH_at, prevH_at]

/-- Channel 4: next − previous along width. -/
theorem diffW_at : k0_pay2 x0 (k0_pay11 x0) (0#32 : BitVec 32) (ix5 0 0 d h w)
    = FloatOps.subf (nextW zpad x0 0 0 d h w) (prevW zpad x0 0 0 d h w) := by
  show FloatOps.subf (k0_pay11 x0 (ix5 0 0 d h w)) (k0_pay1 x0 (0#32 : BitVec 32) (ix5 0 0 d h w)) = _
  rw [nextW_at, prevW_at]

/-! ## The block -/

/-- The output block of one point as a function of its slab: channel `g` at (d, h, w) is group `g` there. -/
def blockOf (z : F .f32) (x : Vec F S1x1x64x64x64 .f32) : Vec F S1x5x64x64x64 .f32 := fun y =>
  group z x 0 0 ⟨(y 1).val, (y 1).isLt⟩ ⟨(y 2).val, (y 2).isLt⟩ ⟨(y 3).val, (y 3).isLt⟩ ⟨(y 4).val, (y 4).isLt⟩

/-- The block at an index whose coordinates are known. -/
theorem blockOf_at (z : F .f32) (x : Vec F S1x1x64x64x64 .f32) (y : S1x5x64x64x64.Idx) (g : Fin 5) (d h w : Fin 64)
    (h1 : (y 1).val = g.val) (h2 : (y 2).val = d.val) (h3 : (y 3).val = h.val) (h4 : (y 4).val = w.val) :
    blockOf z x y = group z x 0 0 g d h w := by
  have e1 : (⟨(y 1).val, (y 1).isLt⟩ : Fin 5) = g := Fin.ext h1
  have e2 : (⟨(y 2).val, (y 2).isLt⟩ : Fin 64) = d := Fin.ext h2
  have e3 : (⟨(y 3).val, (y 3).isLt⟩ : Fin 64) = h := Fin.ext h3
  have e4 : (⟨(y 4).val, (y 4).isLt⟩ : Fin 64) = w := Fin.ext h4
  exact congr (congr (congr (congrArg (group z x 0 0) e1) e2) e3) e4

theorem zeros5 : (![0, 0, 0, 0, 0] : Fin 5 → Nat) = fun _ => 0 := funext fun a => by
  match a with
  | ⟨0, _⟩ => rfl
  | ⟨1, _⟩ => rfl
  | ⟨2, _⟩ => rfl
  | ⟨3, _⟩ => rfl
  | ⟨4, _⟩ => rfl

/-- Each of the five stores writes its channel of `blockOf`. -/
theorem store_copy (xi : r0_1.shape.Idx) : x0 xi = blockOf zpad x0 (r0_1.emb xi) := by
  obtain ⟨a, b, d, h, w, rfl⟩ : ∃ (a b : Fin 1) (d h w : Fin 64), xi = ix5 a b d h w := ⟨xi 0, xi 1, xi 2, xi 3, xi 4, eq_ix5 xi⟩
  obtain rfl : a = 0 := Subsingleton.elim _ _
  obtain rfl : b = 0 := Subsingleton.elim _ _
  rw [blockOf_at zpad x0 _ ⟨0, by decide⟩ d h w (by show 0 + 1 * 0 = 0; omega) (by show 0 + 1 * d.val = d.val; omega)
    (by show 0 + 1 * h.val = h.val; omega) (by show 0 + 1 * w.val = w.val; omega)]
  rfl

theorem store_sum (xi : r0_5.shape.Idx) :
    k0_pay3 x0 (k0_pay10 x0) (k0_pay11 x0) (0#32 : BitVec 32) xi = blockOf zpad x0 (r0_5.emb xi) := by
  obtain ⟨a, b, d, h, w, rfl⟩ : ∃ (a b : Fin 1) (d h w : Fin 64), xi = ix5 a b d h w := ⟨xi 0, xi 1, xi 2, xi 3, xi 4, eq_ix5 xi⟩
  obtain rfl : a = 0 := Subsingleton.elim _ _
  obtain rfl : b = 0 := Subsingleton.elim _ _
  rw [blockOf_at zpad x0 _ ⟨1, by decide⟩ d h w (by show 1 + 1 * 0 = 1; omega) (by show 0 + 1 * d.val = d.val; omega)
    (by show 0 + 1 * h.val = h.val; omega) (by show 0 + 1 * w.val = w.val; omega)]
  exact sum_at x0 d h w

theorem store_diffD (xi : r0_2.shape.Idx) : k0_pay6 x0 xi = blockOf zpad x0 (r0_2.emb xi) := by
  obtain ⟨a, b, d, h, w, rfl⟩ : ∃ (a b : Fin 1) (d h w : Fin 64), xi = ix5 a b d h w := ⟨xi 0, xi 1, xi 2, xi 3, xi 4, eq_ix5 xi⟩
  obtain rfl : a = 0 := Subsingleton.elim _ _
  obtain rfl : b = 0 := Subsingleton.elim _ _
  rw [blockOf_at zpad x0 _ ⟨2, by decide⟩ d h w (by show 2 + 1 * 0 = 2; omega) (by show 0 + 1 * d.val = d.val; omega)
    (by show 0 + 1 * h.val = h.val; omega) (by show 0 + 1 * w.val = w.val; omega)]
  exact diffD_at x0 d h w

theorem store_diffH (xi : r0_3.shape.Idx) : k0_pay9 x0 xi = blockOf zpad x0 (r0_3.emb xi) := by
  obtain ⟨a, b, d, h, w, rfl⟩ : ∃ (a b : Fin 1) (d h w : Fin 64), xi = ix5 a b d h w := ⟨xi 0, xi 1, xi 2, xi 3, xi 4, eq_ix5 xi⟩
  obtain rfl : a = 0 := Subsingleton.elim _ _
  obtain rfl : b = 0 := Subsingleton.elim _ _
  rw [blockOf_at zpad x0 _ ⟨3, by decide⟩ d h w (by show 3 + 1 * 0 = 3; omega) (by show 0 + 1 * d.val = d.val; omega)
    (by show 0 + 1 * h.val = h.val; omega) (by show 0 + 1 * w.val = w.val; omega)]
  exact diffH_at x0 d h w

theorem store_diffW (xi : r0_4.shape.Idx) :
    k0_pay2 x0 (k0_pay11 x0) (0#32 : BitVec 32) xi = blockOf zpad x0 (r0_4.emb xi) := by
  obtain ⟨a, b, d, h, w, rfl⟩ : ∃ (a b : Fin 1) (d h w : Fin 64), xi = ix5 a b d h w := ⟨xi 0, xi 1, xi 2, xi 3, xi 4, eq_ix5 xi⟩
  obtain rfl : a = 0 := Subsingleton.elim _ _
  obtain rfl : b = 0 := Subsingleton.elim _ _
  rw [blockOf_at zpad x0 _ ⟨4, by decide⟩ d h w (by show 4 + 1 * 0 = 4; omega) (by show 0 + 1 * d.val = d.val; omega)
    (by show 0 + 1 * h.val = h.val; omega) (by show 0 + 1 * w.val = w.val; omega)]
  exact diffW_at x0 d h w

/-- What the body leaves in the output buffer is `blockOf` of the slab it loaded: the five stores tile the buffer and
    each writes its channel. -/
theorem out_eq : out0_1 x0 = blockOf zpad x0 := by
  funext y
  unfold out0_1
  simp only [View.ld_unit_zero (S := S1x1x64x64x64) zeros5]
  refine View.canon_apply_of_pieces (blockOf zpad x0) _ (fun p hp => ?_) y (cover0_1 _ _ _ _ _ y)
  rcases List.mem_cons.mp hp with rfl | hp
  · exact store_sum x0
  rcases List.mem_cons.mp hp with rfl | hp
  · exact store_diffW x0
  rcases List.mem_cons.mp hp with rfl | hp
  · exact store_diffH x0
  rcases List.mem_cons.mp hp with rfl | hp
  · exact store_diffD x0
  rcases List.mem_cons.mp hp with rfl | hp
  · exact store_copy x0
  · exact absurd hp (List.not_mem_nil)

end Cert.KernelIdeal.Slab

end
-- ==== Proof.KernelRun.lean ====
/-
  The kernel's result array after the run is the interleaved stencil of its argument.

  The grid has one point per slab (batch `bi`, channel `ci`).  The point's input block is slab (bi, ci) of the argument,
  its output block is channels 5·ci … 5·ci + 4 of batch `bi` of the result, and what it writes back is `blockOf` of its
  slab (KernelSlab.lean): channel `g` of the block is group `g` of the slab, which is group `g` of the whole argument at
  slab (bi, ci), because a shift along a spatial axis never leaves its slab.  The 64 output blocks tile the result
  array, so the array ends holding `interleaved` of the argument.
-/
import proofs.«176575_j17162689314953_1_alg».proof.Proof.KernelSlab
import proofs.«176575_j17162689314953_1_alg».proof.Proof.Gen.KernelIdeal.Value
import Idealize.ShloMosaic.Lib.Pipeline.Value

noncomputable section

namespace Cert.KernelIdeal.Whole

open Cert.KernelIdeal Cert.KernelIdeal.Gen Cert.KernelIdeal.Value Cert.KernelIdeal.Slab Cert.Stencil
open Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The two index maps, decided over the 64 grid points: both windows sit at the same (batch, channel) block index, at
    block 0 on the three spatial axes, and the block indices stay below 4 and 16. -/
theorem idx_facts : ∀ t : Fin cfg0.N,
    win0_0.index t (0 : Fin 5) = win0_1.index t (0 : Fin 5) ∧ win0_0.index t (1 : Fin 5) = win0_1.index t (1 : Fin 5)
    ∧ win0_0.index t (2 : Fin 5) = 0 ∧ win0_0.index t (3 : Fin 5) = 0 ∧ win0_0.index t (4 : Fin 5) = 0
    ∧ win0_1.index t (2 : Fin 5) = 0 ∧ win0_1.index t (3 : Fin 5) = 0 ∧ win0_1.index t (4 : Fin 5) = 0
    ∧ win0_1.index t (0 : Fin 5) < 4 ∧ win0_1.index t (1 : Fin 5) < 16 :=
  (by decide +kernel : ∀ t : Fin grid0.N, _)

/-- Every (batch, channel) block is some point's. -/
theorem idx_onto : ∀ (q0 : Fin 4) (q1 : Fin 16), ∃ t : Fin cfg0.N, win0_1.index t = ![q0.val, q1.val, 0, 0, 0] :=
  (by decide +kernel : ∀ (q0 : Fin 4) (q1 : Fin 16), ∃ t : Fin grid0.N, win0_1.index t = ![q0.val, q1.val, 0, 0, 0])

/-- The input block of point `t` is slab (bi, ci) of the argument. -/
theorem slab_at (c : Dev nD) (t : Fin cfg0.N) (bi : Fin 4) (ci : Fin 16)
    (hb : win0_0.index t (0 : Fin 5) = bi.val) (hc : win0_0.index t (1 : Fin 5) = ci.val)
    (h2 : win0_0.index t (2 : Fin 5) = 0) (h3 : win0_0.index t (3 : Fin 5) = 0) (h4 : win0_0.index t (4 : Fin 5) = 0)
    (d h w : Fin 64) :
    (iblk m c 0 t : Vec F S1x1x64x64x64 .f32) (ix5 0 0 d h w)
      = (V m c main_arg0 : S4x16x64x64x64.Idx → F .f32) (ix5 bi ci d h w) := by
  unfold iblk
  rw [View.read_apply]
  show V m c main_arg0 _ = V m c main_arg0 _
  refine congrArg (V m c main_arg0) ?_
  funext e
  apply Fin.ext
  match e with
  | ⟨0, _⟩ => show win0_0.index t (0 : Fin 5) * 1 + 1 * 0 = bi.val; omega
  | ⟨1, _⟩ => show win0_0.index t (1 : Fin 5) * 1 + 1 * 0 = ci.val; omega
  | ⟨2, _⟩ => show win0_0.index t (2 : Fin 5) * 64 + 1 * d.val = d.val; omega
  | ⟨3, _⟩ => show win0_0.index t (3 : Fin 5) * 64 + 1 * h.val = h.val; omega
  | ⟨4, _⟩ => show win0_0.index t (4 : Fin 5) * 64 + 1 * w.val = w.val; omega

/-- WHAT POINT `t` WRITES BACK is its block of the interleaved stencil of the argument. -/
theorem flushed_eq (c : Dev nD) (t : Fin cfg0.N) :
    (dats m 0 c).flushed 1 t
      = ((cfg0.win 1).blk t).view.read (Elt F) (interleaved zpad (V m c main_arg0 : S4x16x64x64x64.Idx → F .f32)) := by
  rw [flushed1, out_eq (iblk m c 0 t)]
  obtain ⟨e0, e1, e2, e3, e4, f2, f3, f4, b0, b1⟩ := idx_facts t
  funext y
  have hy0 : (y 0).val < 1 := (y 0).isLt
  have hy1 : (y 1).val < 5 := (y 1).isLt
  have hy2 : (y 2).val < 64 := (y 2).isLt
  have hy3 : (y 3).val < 64 := (y 3).isLt
  have hy4 : (y 4).val < 64 := (y 4).isLt
  show group zpad (iblk m c 0 t : Vec F S1x1x64x64x64 .f32) 0 0 ⟨(y 1).val, hy1⟩ ⟨(y 2).val, hy2⟩ ⟨(y 3).val, hy3⟩ ⟨(y 4).val, hy4⟩
    = interleaved zpad (V m c main_arg0 : S4x16x64x64x64.Idx → F .f32) (((cfg0.win 1).blk t).view.emb y)
  have hj : ((cfg0.win 1).blk t).view.emb y
      = ix5 (⟨win0_1.index t (0 : Fin 5), b0⟩ : Fin 4) (⟨5 * win0_1.index t (1 : Fin 5) + (y 1).val, by omega⟩ : Fin 80)
          (⟨(y 2).val, hy2⟩ : Fin 64) (⟨(y 3).val, hy3⟩ : Fin 64) (⟨(y 4).val, hy4⟩ : Fin 64) := by
    funext e
    apply Fin.ext
    match e with
    | ⟨0, _⟩ => show win0_1.index t (0 : Fin 5) * 1 + 1 * (y 0).val = win0_1.index t (0 : Fin 5); omega
    | ⟨1, _⟩ => show win0_1.index t (1 : Fin 5) * 5 + 1 * (y 1).val = 5 * win0_1.index t (1 : Fin 5) + (y 1).val; omega
    | ⟨2, _⟩ => show win0_1.index t (2 : Fin 5) * 64 + 1 * (y 2).val = (y 2).val; omega
    | ⟨3, _⟩ => show win0_1.index t (3 : Fin 5) * 64 + 1 * (y 3).val = (y 3).val; omega
    | ⟨4, _⟩ => show win0_1.index t (4 : Fin 5) * 64 + 1 * (y 4).val = (y 4).val; omega
  rw [hj, interleaved_at zpad _ _ (⟨win0_1.index t (1 : Fin 5), b1⟩ : Fin 16) (⟨(y 1).val, hy1⟩ : Fin 5) _ _ _ _ rfl]
  exact group_of_slab zpad _ _ _ _
    (fun d h w => slab_at m c t _ _ e0 e1 e2 e3 e4 d h w) _ _ _ _

/-- An index of the result array is in point `t`'s block iff each coordinate is in the block's range on its axis. -/
theorem mem_blk (t : Fin cfg0.N) (i : S4x80x64x64x64.Idx) :
    i ∈ ((cfg0.win 1).blk t).view.set ↔ ∀ a : Fin 5, win0_1.index t a * S1x5x64x64x64.size a ≤ (i a).val
      ∧ (i a).val < win0_1.index t a * S1x5x64x64x64.size a + S1x5x64x64x64.size a := by
  show i ∈ ((View.whole main_v0).slice (win0_1.rect t)).set ↔ _
  rw [View.set_slice_whole, Rect.mem_set_unit]
  exact Iff.rfl

/-- The 64 output blocks cover the result array: index (b, q, d, h, w) lies in the block of the point at batch `b`,
    channel `q / 5`. -/
theorem covered (i : S4x80x64x64x64.Idx) :
    ∃ t : Fin cfg0.N, (cfg0.win 1).flush t = true ∧ i ∈ ((cfg0.win 1).blk t).view.set := by
  have hi0 : (i 0).val < 4 := (i 0).isLt
  have hi1 : (i 1).val < 80 := (i 1).isLt
  have hi2 : (i 2).val < 64 := (i 2).isLt
  have hi3 : (i 3).val < 64 := (i 3).isLt
  have hi4 : (i 4).val < 64 := (i 4).isLt
  obtain ⟨t, ht⟩ := idx_onto ⟨(i 0).val, hi0⟩ ⟨(i 1).val / 5, by omega⟩
  have q0 : win0_1.index t (0 : Fin 5) = (i 0).val := congrFun ht 0
  have q1 : win0_1.index t (1 : Fin 5) = (i 1).val / 5 := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 5 ≤ (i 1).val ∧ (i 1).val < win0_1.index t (1 : Fin 5) * 5 + 5; omega
  | ⟨2, _⟩ => show win0_1.index t (2 : Fin 5) * 64 ≤ (i 2).val ∧ (i 2).val < win0_1.index t (2 : Fin 5) * 64 + 64; omega
  | ⟨3, _⟩ => show win0_1.index t (3 : Fin 5) * 64 ≤ (i 3).val ∧ (i 3).val < win0_1.index t (3 : Fin 5) * 64 + 64; omega
  | ⟨4, _⟩ => show win0_1.index t (4 : Fin 5) * 64 ≤ (i 4).val ∧ (i 4).val < win0_1.index t (4 : Fin 5) * 64 + 64; omega

/-- THE RESULT ARRAY after the run. -/
theorem final (c : Dev nD) :
    (dats m 0 c).arrAt 1 cfg0.N = interleaved zpad (V m c main_arg0 : S4x16x64x64x64.Idx → F .f32) :=
  (dats m 0 c).arrAt_eq_of_cover 1 (interleaved zpad (V m c main_arg0 : S4x16x64x64x64.Idx → F .f32))
    (fun t _ => flushed_eq m c t) covered

/-- The run, read: the result array is the interleaved stencil of the argument as launched; the argument is unchanged. -/
theorem run : θ_run defs (onTc (τ := τ) (main (F := F))) ⟨m, fun _ => 0, ρ⟩ fun r => ∀ c : Dev nD,
      r.2.mem ((c : Thread nD τ).loc main_v0)
        = interleaved zpad (m ((c : Thread nD τ).loc main_arg0) : S4x16x64x64x64.Idx → F .f32)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.RefTaps.lean ====
/-
  The reference's spelling of a zero-padded shift, read at an index.

  On the host the whole stack [4, 16, 64, 64, 64] is padded by one layer of the padding value along a spatial axis —
  after the last layer for "next", before the first for "previous" — and 64 layers are cut out of the 65: from layer 1
  on for "next", from layer 0 on for "previous".  At position (d, h, w) the cut reads layer d + 1 (resp. d) of the padded
  stack, which is the stack's entry one step further (resp. back) when that layer lies inside the stack and the padding
  value when it is the added layer.  One lemma per axis and direction; the padding value is a rank-0 array `p`, whose
  one entry is `z`.
-/
import proofs.«176575_j17162689314953_1_alg».proof.Proof.Stencil
import Idealize.ShloMosaic.Lib.Pipeline.Value
import Idealize.ShloMosaic.Lib.KernelVsHost

noncomputable section

namespace Cert.Stencil

open Idealize.ShloMosaic Idealize.ShloMosaic.ValueIdx

variable {F : FTy → Type} [FloatOps F]

/-- The whole stack of slabs. -/
abbrev Stack : Shape := ⟨5, ![4, 16, 64, 64, 64]⟩
abbrev StackD : Shape := ⟨5, ![4, 16, 65, 64, 64]⟩
abbrev StackH : Shape := ⟨5, ![4, 16, 64, 65, 64]⟩
abbrev StackW : Shape := ⟨5, ![4, 16, 64, 64, 65]⟩
abbrev Scalar0 : Shape := ⟨0, ![]⟩

variable (z : F .f32) (x : Stack.Idx → F .f32) (p : Scalar0.Idx → F .f32) (hu : 0 < Scalar0.numel)
  (a : Fin 4) (b : Fin 16) (d h w : Fin 64)

/-- Depth, next: one layer of padding after the last, cut from layer 1. -/
theorem cut_pad_nextD (hp : Stack.Pads ![0, 0, 0, 0, 0] ![0, 0, 1, 0, 0] ![0, 0, 0, 0, 0] StackD)
    (hs : StackD.Slices ![0, 0, 1, 0, 0] Stack) (hz : p (Shape.Idx.first hu) = z) :
    extractStridedSlice Stack ![0, 0, 1, 0, 0] (pad StackD ![0, 0, 0, 0, 0] ![0, 0, 1, 0, 0] ![0, 0, 0, 0, 0] x p hp hu) hs (ix5 a b d h w)
      = nextD z x a b d h w := by
  have hd : d.val < 64 := d.isLt
  refine (extractStridedSlice_apply _ _ hs (ix5 a b d h w) (ix5 a b (⟨d.val + 1, by omega⟩ : Fin 65) h w) (fun e => ?_)).trans ?_
  · match e with
    | ⟨0, _⟩ => show a.val = 0 + a.val; omega
    | ⟨1, _⟩ => show b.val = 0 + b.val; omega
    | ⟨2, _⟩ => show d.val + 1 = 1 + d.val; omega
    | ⟨3, _⟩ => show h.val = 0 + h.val; omega
    | ⟨4, _⟩ => show w.val = 0 + w.val; omega
  · unfold nextD
    by_cases hd1 : d.val + 1 < 64
    · rw [dif_pos hd1]
      exact pad_apply_of_inside _ _ _ x p hp hu _ (ix5 a b ⟨d.val + 1, hd1⟩ h w) (fun e => by
        match e with
        | ⟨0, _⟩ => show a.val = 0 + a.val * (0 + 1); omega
        | ⟨1, _⟩ => show b.val = 0 + b.val * (0 + 1); omega
        | ⟨2, _⟩ => show d.val + 1 = 0 + (d.val + 1) * (0 + 1); omega
        | ⟨3, _⟩ => show h.val = 0 + h.val * (0 + 1); omega
        | ⟨4, _⟩ => show w.val = 0 + w.val * (0 + 1); omega)
    · rw [dif_neg hd1]
      exact (pad_apply_of_not_inside _ _ _ x p hp hu _ (2 : Fin 5) (by
        show ¬(0 ≤ d.val + 1 ∧ (d.val + 1 - 0) % (0 + 1) = 0 ∧ (d.val + 1 - 0) / (0 + 1) < 64); omega)).trans hz

/-- Depth, previous: one layer of padding before the first, cut from layer 0. -/
theorem cut_pad_prevD (hp : Stack.Pads ![0, 0, 1, 0, 0] ![0, 0, 0, 0, 0] ![0, 0, 0, 0, 0] StackD)
    (hs : StackD.Slices ![0, 0, 0, 0, 0] Stack) (hz : p (Shape.Idx.first hu) = z) :
    extractStridedSlice Stack ![0, 0, 0, 0, 0] (pad StackD ![0, 0, 1, 0, 0] ![0, 0, 0, 0, 0] ![0, 0, 0, 0, 0] x p hp hu) hs (ix5 a b d h w)
      = prevD z x a b d h w := by
  have hd : d.val < 64 := d.isLt
  refine (extractStridedSlice_apply _ _ hs (ix5 a b d h w) (ix5 a b (⟨d.val, by omega⟩ : Fin 65) h w) (fun e => ?_)).trans ?_
  · match e with
    | ⟨0, _⟩ => show a.val = 0 + a.val; omega
    | ⟨1, _⟩ => show b.val = 0 + b.val; omega
    | ⟨2, _⟩ => show d.val = 0 + d.val; omega
    | ⟨3, _⟩ => show h.val = 0 + h.val; omega
    | ⟨4, _⟩ => show w.val = 0 + w.val; omega
  · unfold prevD
    by_cases hd1 : 1 ≤ d.val
    · rw [dif_pos hd1]
      exact pad_apply_of_inside _ _ _ x p hp hu _ (ix5 a b ⟨d.val - 1, by omega⟩ h w) (fun e => by
        match e with
        | ⟨0, _⟩ => show a.val = 0 + a.val * (0 + 1); omega
        | ⟨1, _⟩ => show b.val = 0 + b.val * (0 + 1); omega
        | ⟨2, _⟩ => show d.val = 1 + (d.val - 1) * (0 + 1); omega
        | ⟨3, _⟩ => show h.val = 0 + h.val * (0 + 1); omega
        | ⟨4, _⟩ => show w.val = 0 + w.val * (0 + 1); omega)
    · rw [dif_neg hd1]
      exact (pad_apply_of_not_inside _ _ _ x p hp hu _ (2 : Fin 5) (by
        show ¬(1 ≤ d.val ∧ (d.val - 1) % (0 + 1) = 0 ∧ (d.val - 1) / (0 + 1) < 64); omega)).trans hz

/-- Height, next. -/
theorem cut_pad_nextH (hp : Stack.Pads ![0, 0, 0, 0, 0] ![0, 0, 0, 1, 0] ![0, 0, 0, 0, 0] StackH)
    (hs : StackH.Slices ![0, 0, 0, 1, 0] Stack) (hz : p (Shape.Idx.first hu) = z) :
    extractStridedSlice Stack ![0, 0, 0, 1, 0] (pad StackH ![0, 0, 0, 0, 0] ![0, 0, 0, 1, 0] ![0, 0, 0, 0, 0] x p hp hu) hs (ix5 a b d h w)
      = nextH z x a b d h w := by
  have hh : h.val < 64 := h.isLt
  refine (extractStridedSlice_apply _ _ hs (ix5 a b d h w) (ix5 a b d (⟨h.val + 1, by omega⟩ : Fin 65) w) (fun e => ?_)).trans ?_
  · match e with
    | ⟨0, _⟩ => show a.val = 0 + a.val; omega
    | ⟨1, _⟩ => show b.val = 0 + b.val; omega
    | ⟨2, _⟩ => show d.val = 0 + d.val; omega
    | ⟨3, _⟩ => show h.val + 1 = 1 + h.val; omega
    | ⟨4, _⟩ => show w.val = 0 + w.val; omega
  · unfold nextH
    by_cases hh1 : h.val + 1 < 64
    · rw [dif_pos hh1]
      exact pad_apply_of_inside _ _ _ x p hp hu _ (ix5 a b d ⟨h.val + 1, hh1⟩ w) (fun e => by
        match e with
        | ⟨0, _⟩ => show a.val = 0 + a.val * (0 + 1); omega
        | ⟨1, _⟩ => show b.val = 0 + b.val * (0 + 1); omega
        | ⟨2, _⟩ => show d.val = 0 + d.val * (0 + 1); omega
        | ⟨3, _⟩ => show h.val + 1 = 0 + (h.val + 1) * (0 + 1); omega
        | ⟨4, _⟩ => show w.val = 0 + w.val * (0 + 1); omega)
    · rw [dif_neg hh1]
      exact (pad_apply_of_not_inside _ _ _ x p hp hu _ (3 : Fin 5) (by
        show ¬(0 ≤ h.val + 1 ∧ (h.val + 1 - 0) % (0 + 1) = 0 ∧ (h.val + 1 - 0) / (0 + 1) < 64); omega)).trans hz

/-- Height, previous. -/
theorem cut_pad_prevH (hp : Stack.Pads ![0, 0, 0, 1, 0] ![0, 0, 0, 0, 0] ![0, 0, 0, 0, 0] StackH)
    (hs : StackH.Slices ![0, 0, 0, 0, 0] Stack) (hz : p (Shape.Idx.first hu) = z) :
    extractStridedSlice Stack ![0, 0, 0, 0, 0] (pad StackH ![0, 0, 0, 1, 0] ![0, 0, 0, 0, 0] ![0, 0, 0, 0, 0] x p hp hu) hs (ix5 a b d h w)
      = prevH z x a b d h w := by
  have hh : h.val < 64 := h.isLt
  refine (extractStridedSlice_apply _ _ hs (ix5 a b d h w) (ix5 a b d (⟨h.val, by omega⟩ : Fin 65) w) (fun e => ?_)).trans ?_
  · match e with
    | ⟨0, _⟩ => show a.val = 0 + a.val; omega
    | ⟨1, _⟩ => show b.val = 0 + b.val; omega
    | ⟨2, _⟩ => show d.val = 0 + d.val; omega
    | ⟨3, _⟩ => show h.val = 0 + h.val; omega
    | ⟨4, _⟩ => show w.val = 0 + w.val; omega
  · unfold prevH
    by_cases hh1 : 1 ≤ h.val
    · rw [dif_pos hh1]
      exact pad_apply_of_inside _ _ _ x p hp hu _ (ix5 a b d ⟨h.val - 1, by omega⟩ w) (fun e => by
        match e with
        | ⟨0, _⟩ => show a.val = 0 + a.val * (0 + 1); omega
        | ⟨1, _⟩ => show b.val = 0 + b.val * (0 + 1); omega
        | ⟨2, _⟩ => show d.val = 0 + d.val * (0 + 1); omega
        | ⟨3, _⟩ => show h.val = 1 + (h.val - 1) * (0 + 1); omega
        | ⟨4, _⟩ => show w.val = 0 + w.val * (0 + 1); omega)
    · rw [dif_neg hh1]
      exact (pad_apply_of_not_inside _ _ _ x p hp hu _ (3 : Fin 5) (by
        show ¬(1 ≤ h.val ∧ (h.val - 1) % (0 + 1) = 0 ∧ (h.val - 1) / (0 + 1) < 64); omega)).trans hz

/-- Width, next. -/
theorem cut_pad_nextW (hp : Stack.Pads ![0, 0, 0, 0, 0] ![0, 0, 0, 0, 1] ![0, 0, 0, 0, 0] StackW)
    (hs : StackW.Slices ![0, 0, 0, 0, 1] Stack) (hz : p (Shape.Idx.first hu) = z) :
    extractStridedSlice Stack ![0, 0, 0, 0, 1] (pad StackW ![0, 0, 0, 0, 0] ![0, 0, 0, 0, 1] ![0, 0, 0, 0, 0] x p hp hu) hs (ix5 a b d h w)
      = nextW z x a b d h w := by
  have hw : w.val < 64 := w.isLt
  refine (extractStridedSlice_apply _ _ hs (ix5 a b d h w) (ix5 a b d h (⟨w.val + 1, by omega⟩ : Fin 65)) (fun e => ?_)).trans ?_
  · match e with
    | ⟨0, _⟩ => show a.val = 0 + a.val; omega
    | ⟨1, _⟩ => show b.val = 0 + b.val; omega
    | ⟨2, _⟩ => show d.val = 0 + d.val; omega
    | ⟨3, _⟩ => show h.val = 0 + h.val; omega
    | ⟨4, _⟩ => show w.val + 1 = 1 + w.val; omega
  · unfold nextW
    by_cases hw1 : w.val + 1 < 64
    · rw [dif_pos hw1]
      exact pad_apply_of_inside _ _ _ x p hp hu _ (ix5 a b d h ⟨w.val + 1, hw1⟩) (fun e => by
        match e with
        | ⟨0, _⟩ => show a.val = 0 + a.val * (0 + 1); omega
        | ⟨1, _⟩ => show b.val = 0 + b.val * (0 + 1); omega
        | ⟨2, _⟩ => show d.val = 0 + d.val * (0 + 1); omega
        | ⟨3, _⟩ => show h.val = 0 + h.val * (0 + 1); omega
        | ⟨4, _⟩ => show w.val + 1 = 0 + (w.val + 1) * (0 + 1); omega)
    · rw [dif_neg hw1]
      exact (pad_apply_of_not_inside _ _ _ x p hp hu _ (4 : Fin 5) (by
        show ¬(0 ≤ w.val + 1 ∧ (w.val + 1 - 0) % (0 + 1) = 0 ∧ (w.val + 1 - 0) / (0 + 1) < 64); omega)).trans hz

/-- Width, previous. -/
theorem cut_pad_prevW (hp : Stack.Pads ![0, 0, 0, 0, 1] ![0, 0, 0, 0, 0] ![0, 0, 0, 0, 0] StackW)
    (hs : StackW.Slices ![0, 0, 0, 0, 0] Stack) (hz : p (Shape.Idx.first hu) = z) :
    extractStridedSlice Stack ![0, 0, 0, 0, 0] (pad StackW ![0, 0, 0, 0, 1] ![0, 0, 0, 0, 0] ![0, 0, 0, 0, 0] x p hp hu) hs (ix5 a b d h w)
      = prevW z x a b d h w := by
  have hw : w.val < 64 := w.isLt
  refine (extractStridedSlice_apply _ _ hs (ix5 a b d h w) (ix5 a b d h (⟨w.val, by omega⟩ : Fin 65)) (fun e => ?_)).trans ?_
  · match e with
    | ⟨0, _⟩ => show a.val = 0 + a.val; omega
    | ⟨1, _⟩ => show b.val = 0 + b.val; omega
    | ⟨2, _⟩ => show d.val = 0 + d.val; omega
    | ⟨3, _⟩ => show h.val = 0 + h.val; omega
    | ⟨4, _⟩ => show w.val = 0 + w.val; omega
  · unfold prevW
    by_cases hw1 : 1 ≤ w.val
    · rw [dif_pos hw1]
      exact pad_apply_of_inside _ _ _ x p hp hu _ (ix5 a b d h ⟨w.val - 1, by omega⟩) (fun e => by
        match e with
        | ⟨0, _⟩ => show a.val = 0 + a.val * (0 + 1); omega
        | ⟨1, _⟩ => show b.val = 0 + b.val * (0 + 1); omega
        | ⟨2, _⟩ => show d.val = 0 + d.val * (0 + 1); omega
        | ⟨3, _⟩ => show h.val = 0 + h.val * (0 + 1); omega
        | ⟨4, _⟩ => show w.val = 1 + (w.val - 1) * (0 + 1); omega)
    · rw [dif_neg hw1]
      exact (pad_apply_of_not_inside _ _ _ x p hp hu _ (4 : Fin 5) (by
        show ¬(1 ≤ w.val ∧ (w.val - 1) % (0 + 1) = 0 ∧ (w.val - 1) / (0 + 1) < 64); omega)).trans hz

end Cert.Stencil

end
-- ==== Proof.RefValue.lean ====
/-
  The reference's result array is the interleaved stencil of its argument.

  The host program pads the whole stack by one layer of zeros on one side of a spatial axis and cuts 64 layers out of the
  65, once per axis and direction (read at an index in RefTaps.lean), adds the six shifted stacks left to right, forms the
  three differences, puts the argument, the sum and the differences side by side along a new axis of extent 5 behind the
  channel axis, and merges that axis into the channel axis: channel `5c + g` of the result is piece `g` at channel `c`.
-/
import proofs.«176575_j17162689314953_1_alg».proof.Proof.RefTaps
import proofs.«176575_j17162689314953_1_alg».proof.Proof.Gen.ReferenceIdeal.Read
import Idealize.ShloMosaic.Lib.Pipeline.Value
import Idealize.ShloMosaic.Lib.ValueIdxRank6

noncomputable section

namespace Cert.ReferenceIdeal.RefValue

open Cert.ReferenceIdeal Cert.ReferenceIdeal.Read Cert.Stencil
open Idealize.ShloMosaic Idealize.ShloMosaic.ValueIdx Idealize.ShloMosaic.TcCoe

variable {F : FTy → Type} [FloatOps F]

/-- The padding value of the host's six pads: the integer constant 0 converted to f32. -/
abbrev zpad : F .f32 := FloatOps.sitofp (F := F) .f32 (0#32 : BitVec 32)

variable (x : (⟨S4x16x64x64x64, .f32⟩ : BufTy).Contents (Elt F)) (a : Fin 4) (c : Fin 16) (d h w : Fin 64)

/-! ## The six shifted copies of the stack -/

theorem nextD_at : val_main_v1 (F := F) x (ix5 a c d h w) = nextD zpad x a c d h w := by
  unfold val_main_v1 val_main_v0; exact cut_pad_nextD zpad x _ _ a c d h w _ _ rfl

theorem prevD_at : val_main_v3 (F := F) x (ix5 a c d h w) = prevD zpad x a c d h w := by
  unfold val_main_v3 val_main_v2; exact cut_pad_prevD zpad x _ _ a c d h w _ _ rfl

theorem nextH_at : val_main_v5 (F := F) x (ix5 a c d h w) = nextH zpad x a c d h w := by
  unfold val_main_v5 val_main_v4; exact cut_pad_nextH zpad x _ _ a c d h w _ _ rfl

theorem prevH_at : val_main_v7 (F := F) x (ix5 a c d h w) = prevH zpad x a c d h w := by
  unfold val_main_v7 val_main_v6; exact cut_pad_prevH zpad x _ _ a c d h w _ _ rfl

theorem nextW_at : val_main_v9 (F := F) x (ix5 a c d h w) = nextW zpad x a c d h w := by
  unfold val_main_v9 val_main_v8; exact cut_pad_nextW zpad x _ _ a c d h w _ _ rfl

theorem prevW_at : val_main_v11 (F := F) x (ix5 a c d h w) = prevW zpad x a c d h w := by
  unfold val_main_v11 val_main_v10; exact cut_pad_prevW zpad x _ _ a c d h w _ _ rfl

/-! ## The sum and the three differences -/

theorem sum_at : val_main_v16 (F := F) x (ix5 a c d h w) = neighbourSum zpad x a c d h w := by
  rw [val_main_v16_apply, val_main_v15_apply, val_main_v14_apply, val_main_v13_apply, val_main_v12_apply,
    nextD_at, prevD_at, nextH_at, prevH_at, nextW_at, prevW_at]
  rfl

theorem diffD_at : val_main_v17 (F := F) x (ix5 a c d h w) = FloatOps.subf (nextD zpad x a c d h w) (prevD zpad x a c d h w) := by
  rw [val_main_v17_apply, nextD_at, prevD_at]

theorem diffH_at : val_main_v18 (F := F) x (ix5 a c d h w) = FloatOps.subf (nextH zpad x a c d h w) (prevH zpad x a c d h w) := by
  rw [val_main_v18_apply, nextH_at, prevH_at]

theorem diffW_at : val_main_v19 (F := F) x (ix5 a c d h w) = FloatOps.subf (nextW zpad x a c d h w) (prevW zpad x a c d h w) := by
  rw [val_main_v19_apply, nextW_at, prevW_at]

/-! ## The five pieces with their new unit axis -/

/-- Dropping the unit axis of an index of a piece. -/
theorem drop_unit (u : Fin 1) :
    idx_main_v20 (ix6 a c u d h w) = ix5 a c d h w := by
  funext e
  match e with
  | ⟨0, _⟩ => rfl
  | ⟨1, _⟩ => rfl
  | ⟨2, _⟩ => rfl
  | ⟨3, _⟩ => rfl
  | ⟨4, _⟩ => rfl

theorem piece0_at (u : Fin 1) : val_main_v20 (F := F) x (ix6 a c u d h w) = group zpad x a c ⟨0, by decide⟩ d h w := by
  rw [val_main_v20_apply, drop_unit]; rfl

theorem piece1_at (u : Fin 1) : val_main_v21 (F := F) x (ix6 a c u d h w) = group zpad x a c ⟨1, by decide⟩ d h w := by
  rw [val_main_v21_apply, show idx_main_v21 (ix6 a c u d h w) = ix5 a c d h w from drop_unit a c d h w u, sum_at]; rfl

theorem piece2_at (u : Fin 1) : val_main_v22 (F := F) x (ix6 a c u d h w) = group zpad x a c ⟨2, by decide⟩ d h w := by
  rw [val_main_v22_apply, show idx_main_v22 (ix6 a c u d h w) = ix5 a c d h w from drop_unit a c d h w u, diffD_at]; rfl

theorem piece3_at (u : Fin 1) : val_main_v23 (F := F) x (ix6 a c u d h w) = group zpad x a c ⟨3, by decide⟩ d h w := by
  rw [val_main_v23_apply, show idx_main_v23 (ix6 a c u d h w) = ix5 a c d h w from drop_unit a c d h w u, diffH_at]; rfl

theorem piece4_at (u : Fin 1) : val_main_v24 (F := F) x (ix6 a c u d h w) = group zpad x a c ⟨4, by decide⟩ d h w := by
  rw [val_main_v24_apply, show idx_main_v24 (ix6 a c u d h w) = ix5 a c d h w from drop_unit a c d h w u, diffW_at]; rfl

/-! ## The five pieces side by side -/

/-- Position `g` of the new axis reads piece `g`. -/
theorem stacked_at (g : Fin 5) : val_main_v25 (F := F) x (ix6 a c g d h w) = group zpad x a c g d h w := by
  unfold val_main_v25
  have hi : ∀ (e : Fin 6), e.cast (rfl : S4x16x1x64x64x64.rank = S4x16x5x64x64x64.rank) ≠ (2 : Fin 6) →
      ((ix6 a c (0 : Fin 1) d h w : S4x16x1x64x64x64.Idx) e).val = ((ix6 a c g d h w : S4x16x5x64x64x64.Idx) (e.cast rfl)).val := by
    intro e he
    match e with
    | ⟨0, _⟩ => rfl
    | ⟨1, _⟩ => rfl
    | ⟨2, _⟩ => exact absurd rfl he
    | ⟨3, _⟩ => rfl
    | ⟨4, _⟩ => rfl
    | ⟨5, _⟩ => rfl
  match g with
  | ⟨0, hg⟩ =>
    refine Eq.trans ?_ (piece0_at x a c d h w 0)
    refine concatenate_apply_piece (t := S4x16x5x64x64x64) 2 _ _ (ix6 a c (⟨0, hg⟩ : Fin 5) d h w) 0 ?_ S4x16x1x64x64x64 _ ?_ rfl 0 ?_
      (ix6 a c (0 : Fin 1) d h w) hi ?_
    · exact (by decide : (0 : Nat) < 5)
    · rfl
    · rfl
    · rfl
  | ⟨1, hg⟩ =>
    refine Eq.trans ?_ (piece1_at x a c d h w 0)
    refine concatenate_apply_piece (t := S4x16x5x64x64x64) 2 _ _ (ix6 a c (⟨1, hg⟩ : Fin 5) d h w) 1 ?_ S4x16x1x64x64x64 _ ?_ rfl 1 ?_
      (ix6 a c (0 : Fin 1) d h w) hi ?_
    · exact (by decide : (1 : Nat) < 5)
    · rfl
    · rfl
    · rfl
  | ⟨2, hg⟩ =>
    refine Eq.trans ?_ (piece2_at x a c d h w 0)
    refine concatenate_apply_piece (t := S4x16x5x64x64x64) 2 _ _ (ix6 a c (⟨2, hg⟩ : Fin 5) d h w) 2 ?_ S4x16x1x64x64x64 _ ?_ rfl 2 ?_
      (ix6 a c (0 : Fin 1) d h w) hi ?_
    · exact (by decide : (2 : Nat) < 5)
    · rfl
    · rfl
    · rfl
  | ⟨3, hg⟩ =>
    refine Eq.trans ?_ (piece3_at x a c d h w 0)
    refine concatenate_apply_piece (t := S4x16x5x64x64x64) 2 _ _ (ix6 a c (⟨3, hg⟩ : Fin 5) d h w) 3 ?_ S4x16x1x64x64x64 _ ?_ rfl 3 ?_
      (ix6 a c (0 : Fin 1) d h w) hi ?_
    · exact (by decide : (3 : Nat) < 5)
    · rfl
    · rfl
    · rfl
  | ⟨4, hg⟩ =>
    refine Eq.trans ?_ (piece4_at x a c d h w 0)
    refine concatenate_apply_piece (t := S4x16x5x64x64x64) 2 _ _ (ix6 a c (⟨4, hg⟩ : Fin 5) d h w) 4 ?_ S4x16x1x64x64x64 _ ?_ rfl 4 ?_
      (ix6 a c (0 : Fin 1) d h w) hi ?_
    · exact (by decide : (4 : Nat) < 5)
    · rfl
    · rfl
    · rfl

/-! ## The new axis merged into the channel axis -/

/-- The reference's result, as one function of its argument. -/
theorem result_eq : val_main_v26 (F := F) x = interleaved zpad x := by
  funext j
  obtain ⟨a, q, d, h, w, rfl⟩ : ∃ (a : Fin 4) (q : Fin 80) (d h w : Fin 64), j = ix5 a q d h w :=
    ⟨j 0, j 1, j 2, j 3, j 4, eq_ix5 j⟩
  have hq : q.val < 80 := q.isLt
  have ha : a.val < 4 := a.isLt
  have hd : d.val < 64 := d.isLt
  have hh : h.val < 64 := h.isLt
  have hw : w.val < 64 := w.isLt
  rw [interleaved_at zpad x a ⟨q.val / 5, by omega⟩ ⟨q.val % 5, Nat.mod_lt _ (by decide)⟩ d h w q
    (by show q.val = 5 * (q.val / 5) + q.val % 5; omega)]
  unfold val_main_v26
  refine (shapeCast_apply _ _ (ix5 a q d h w) (ix6 a (⟨q.val / 5, by omega⟩ : Fin 16) (⟨q.val % 5, Nat.mod_lt _ (by decide)⟩ : Fin 5) d h w) ?_).trans
    (stacked_at x a _ d h w _)
  rw [Shape.rowMajor_val_six, Shape.rowMajor_val_five]
  show ((((a.val * 16 + q.val / 5) * 5 + q.val % 5) * 64 + d.val) * 64 + h.val) * 64 + w.val
    = (((a.val * 80 + q.val) * 64 + d.val) * 64 + h.val) * 64 + w.val
  have e : (a.val * 16 + q.val / 5) * 5 + q.val % 5 = a.val * 80 + q.val := by omega
  rw [e]

end Cert.ReferenceIdeal.RefValue

end
-- ==== Proof.lean ====
/-
  A 3-D stencil over a stack of 4 × 16 slabs of 64 × 64 × 64 entries: for every entry, the entry itself, the sum of its six
  zero-padded neighbours, and the three central differences next − previous along depth, height and width, laid out as
  five consecutive channels per input channel (result [4, 80, 64, 64, 64]).

  The kernel works slab by slab: one grid point per (batch, channel), whose body shifts the slab by joining it with one
  layer of zeros and cutting 64 layers out of the 65, and stores the five results into the five channels of its output
  block.  The reference shifts the whole stack by padding it with one layer of zeros and cutting, then puts the five
  results side by side on a new axis and merges that axis into the channel axis.  Both perform the same additions and
  subtractions in the same order on the same entries, so the two result arrays are one function of the argument,
  `Cert.Stencil.interleaved` (Stencil.lean): the kernel's by KernelTaps / KernelSlab / KernelRun, the reference's by
  RefTaps / RefValue.  No law of arithmetic and no finiteness is needed; the only fact about numbers is that the two
  programs' spellings of the padding value (the integer 0 converted to f32 on the scalar unit, resp. by the host) denote
  the same extended real.

  The three frames are the generated ones (the reference's is its generated run with the result dropped); the ideal pass
  rewrote nothing, so `preserves` is `True`.
-/
import proofs.«176575_j17162689314953_1_alg».proof.Defs
import proofs.«176575_j17162689314953_1_alg».proof.Proof.Gen.Kernel
import proofs.«176575_j17162689314953_1_alg».proof.Proof.Gen.Kernel.Skeleton
import proofs.«176575_j17162689314953_1_alg».proof.Proof.Gen.Kernel.Launch
import proofs.«176575_j17162689314953_1_alg».proof.Proof.Gen.Kernel.Points
import proofs.«176575_j17162689314953_1_alg».proof.Proof.Gen.Kernel.Frame
import proofs.«176575_j17162689314953_1_alg».proof.Proof.Gen.KernelIdeal
import proofs.«176575_j17162689314953_1_alg».proof.Proof.Gen.KernelIdeal.Skeleton
import proofs.«176575_j17162689314953_1_alg».proof.Proof.Gen.KernelIdeal.Launch
import proofs.«176575_j17162689314953_1_alg».proof.Proof.Gen.KernelIdeal.Points
import proofs.«176575_j17162689314953_1_alg».proof.Proof.Gen.KernelIdeal.Frame
import proofs.«176575_j17162689314953_1_alg».proof.Proof.Gen.ReferenceIdeal
import proofs.«176575_j17162689314953_1_alg».proof.Proof.Gen.Pre_finite_inputs
import proofs.«176575_j17162689314953_1_alg».proof.Proof.Gen.KernelIdeal.Value
import proofs.«176575_j17162689314953_1_alg».proof.Proof.Gen.ReferenceIdeal.Run
import proofs.«176575_j17162689314953_1_alg».proof.Proof.Gen.ReferenceIdeal.Read
import proofs.«176575_j17162689314953_1_alg».proof.Proof.KernelRun
import proofs.«176575_j17162689314953_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The two programs' padding values are the same extended real: the integer 0, exactly. -/
theorem padding_eq : Cert.ReferenceIdeal.RefValue.zpad (F := Ideal) = Cert.KernelIdeal.Slab.zpad (F := Ideal) := rfl

/-- From memories agreeing on the argument both programs end with the interleaved stencil of the argument in their
    result arrays. -/
theorem algebraic : Cert.algebraic_KernelIdeal_ReferenceIdeal := by
  intro m ρ m' ρ' _ hagree
  refine ⟨fun c => Cert.Stencil.interleaved (Cert.KernelIdeal.Slab.zpad (F := Ideal))
    (m ((c.tc : Thread Cert.KernelIdeal.nD Cert.KernelIdeal.τ).loc Cert.KernelIdeal.main_arg0)),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, hagree c, padding_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
